-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S256x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S8192x256 .f32) (main_arg1 : FVec F S8192x8192 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S1x256 : Shape := ⟨2, ![1, 256]⟩
abbrev S8192x1 : Shape := ⟨2, ![8192, 1]⟩
abbrev S2048x256 : Shape := ⟨2, ![2048, 256]⟩
abbrev S1024x256 : Shape := ⟨2, ![1024, 256]⟩
abbrev S2048x1024 : Shape := ⟨2, ![2048, 1024]⟩
abbrev S2048x1 : Shape := ⟨2, ![2048, 1]⟩
abbrev S2048 : Shape := ⟨1, ![2048]⟩
abbrev S8192 : Shape := ⟨1, ![8192]⟩
abbrev S_ : Shape := ⟨0, ![]⟩
abbrev S1 : Shape := ⟨1, ![1]⟩

abbrev nBuf : Space → Nat
  | .hbm => 39
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S8192x256, .f32⟩
  | .hbm, ⟨9, _⟩ => ⟨S1x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S1x256, .f32⟩
  | .hbm, ⟨14, _⟩ => ⟨S8192x256, .f32⟩
  | .hbm, ⟨15, _⟩ => ⟨S8192x256, .f32⟩
  | .hbm, ⟨16, _⟩ => ⟨S8192x256, .bf16⟩
  | .hbm, ⟨17, _⟩ => ⟨S8192x256, .f32⟩
  | .hbm, ⟨18, _⟩ => ⟨S1x256, .f32⟩
  | .hbm, ⟨19, _⟩ => ⟨S8192x256, .f32⟩
  | .hbm, ⟨20, _⟩ => ⟨S8192x256, .f32⟩
  | .hbm, ⟨21, _⟩ => ⟨S8192x1, .f32⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S1, .f32⟩
  | .hbm, ⟨34, _⟩ => ⟨S8192, .f32⟩
  | .hbm, ⟨35, _⟩ => ⟨S8192, .f32⟩
  | .hbm, ⟨36, _⟩ => ⟨S8192x1, .f32⟩
  | .hbm, ⟨37, _⟩ => ⟨S8192x256, .f32⟩
  | .hbm, ⟨38, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S1024x256, .bf16⟩
  | .local _ .vmem, ⟨3, _⟩ => ⟨S1024x256, .bf16⟩
  | .local _ .vmem, ⟨4, _⟩ => ⟨S2048x1024, .f32⟩
  | .local _ .vmem, ⟨5, _⟩ => ⟨S2048x1024, .f32⟩
  | .local _ .vmem, ⟨6, _⟩ => ⟨S2048x1, .f32⟩
  | .local _ .vmem, ⟨7, _⟩ => ⟨S2048x1, .f32⟩
  | .local _ .vmem, ⟨8, _⟩ => ⟨S2048x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1024_S2048x1024_0_0 : ∀ a, (![0, 0] : Fin 2 → Nat) a + S2048x1024.size a ≤ S2048x1024.size a
  h_S2048x1024 : 0 < S2048x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S2048x256_S2048 : S2048x256.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S8192x1_S8192 : S8192x1.ShapeCasts S8192
  reducesTo_S8192_S_d0 : S8192.ReducesTo [0] S_
  h_S_ : 0 < S_.numel
  bcast_S_S1 : S_.BroadcastsInDim S1 (![] : Fin 0 → Fin S1.rank)
  bcast_S1_S8192_0 : S1.BroadcastsInDim S8192 (![0] : Fin 1 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  dot_S8192x256_S256x256_S8192x256_1_0_0_1_n_n_wf : DotDims.WF S8192x256 S256x256 S8192x256 [1] [0] [0] [1] [] []
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x8192.size a
  hwx0_2 : ∀ i : grid0.Coords, EltTy.bits .f32 = 32 ∨ (Rect.block (s := S8192x8192) S2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S8192x1.size a
  hwx0_3 : ∀ i : grid0.Coords, EltTy.bits .f32 = 32 ∨ (Rect.block (s := S8192x1) S2048x1.size (cc0_transform_3 i) (hinb0_3 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_v3) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S1x256 : Shape := ⟨2, ![1, 256]⟩
abbrev S256x8192 : Shape := ⟨2, ![256, 8192]⟩
abbrev S_ : Shape := ⟨0, ![]⟩
abbrev S8192 : Shape := ⟨1, ![8192]⟩
abbrev S1 : Shape := ⟨1, ![1]⟩
abbrev S8192x1 : Shape := ⟨2, ![8192, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S8192x256, .f32⟩
  | .hbm, ⟨9, _⟩ => ⟨S1x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S1x256, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S1x256, .f32⟩
  | .hbm, ⟨18, _⟩ => ⟨S8192x256, .f32⟩
  | .hbm, ⟨19, _⟩ => ⟨S8192x256, .f32⟩
  | .hbm, ⟨20, _⟩ => ⟨S256x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S8192, .f32⟩
  | .hbm, ⟨37, _⟩ => ⟨S8192, .f32⟩
  | .hbm, ⟨38, _⟩ => ⟨S8192x1, .f32⟩
  | .hbm, ⟨39, _⟩ => ⟨S8192x256, .f32⟩
  | .hbm, ⟨40, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8192x256_S256x8192_1_0 : S8192x256.Transposes [1, 0] S256x8192
  reducesTo_S8192x8192_S8192_d1 : S8192x8192.ReducesTo [1] S8192
  h_S_ : 0 < S_.numel
  reducesTo_S8192_S_d0 : S8192.ReducesTo [0] S_
  bcast_S_S1 : S_.BroadcastsInDim S1 (![] : Fin 0 → Fin S1.rank)
  bcast_S1_S8192_0 : S1.BroadcastsInDim S8192 (![0] : Fin 1 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Blocks.lean ====
/-
  The blocks the body is handed, read back. At grid position t = 8 * i + j the query block is rows 2048 i .. of the
  queries, the key block rows 1024 j .. of the keys, the adjacency block rows 2048 i .. and columns 1024 j .. of the
  adjacency matrix: entry (p, x) of a block is the array's entry at block index * block size + local coordinate on
  each axis.
-/
import proofs.«132343_j5600637354122_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The query, key and adjacency blocks of a grid position, and the three arrays they are cut from, as plain arrays of
    extended reals. -/
def qryBlk (c : Dev nD) (t : Fin cfg0.N) : Vec Ideal S2048x256 .f32 := iblk m c 0 t
def keyBlk (c : Dev nD) (t : Fin cfg0.N) : Vec Ideal S1024x256 .bf16 := iblk m c 1 t
def adjBlk (c : Dev nD) (t : Fin cfg0.N) : Vec Ideal S2048x1024 .f32 := iblk m c 2 t
def qryArr (c : Dev nD) : FVec Ideal S8192x256 .f32 := V m c main_v3
def keyArr (c : Dev nD) : FVec Ideal S8192x256 .bf16 := V m c main_v8
def adjArr (c : Dev nD) : FVec Ideal S8192x8192 .f32 := V m c main_arg1

/-- The printed index maps over the grid: block row t / 8, key tile t % 8. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8
    ∧ win0_3.index t (0 : Fin 2) = t.val / 8 ∧ win0_3.index t (1 : Fin 2) = 0 :=
  (by decide +kernel : ∀ t : Fin grid0.N, _)

theorem qry_apply (c : Dev nD) (t : Fin cfg0.N) (p : Fin 2048) (d : Fin 256) (r : Fin 8192)
    (hr : r.val = 2048 * (t.val / 8) + p.val) : qryBlk m c t (ix2 p d) = qryArr m c (ix2 r d) := by
  obtain ⟨e0, e1, -⟩ := idx_facts t
  unfold qryBlk qryArr iblk
  rw [View.read_apply]
  show V m c main_v3 _ = V m c main_v3 _
  refine congrArg (V m c main_v3) (funext fun a => Fin.ext ?_)
  match a with
  | ⟨0, _⟩ => show win0_0.index t (0 : Fin 2) * 2048 + 1 * p.val = r.val; rw [e0, hr]; omega
  | ⟨1, _⟩ => show win0_0.index t (1 : Fin 2) * 256 + 1 * d.val = d.val; rw [e1]; omega

theorem key_apply (c : Dev nD) (t : Fin cfg0.N) (x : Fin 1024) (d : Fin 256) (j : Fin 8192)
    (hj : j.val = 1024 * (t.val % 8) + x.val) : keyBlk m c t (ix2 x d) = keyArr m c (ix2 j d) := by
  obtain ⟨-, -, e0, e1, -⟩ := idx_facts t
  unfold keyBlk keyArr iblk
  rw [View.read_apply]
  show V m c main_v8 _ = V m c main_v8 _
  refine congrArg (V m c main_v8) (funext fun a => Fin.ext ?_)
  match a with
  | ⟨0, _⟩ => show win0_1.index t (0 : Fin 2) * 1024 + 1 * x.val = j.val; rw [e0, hj]; omega
  | ⟨1, _⟩ => show win0_1.index t (1 : Fin 2) * 256 + 1 * d.val = d.val; rw [e1]; omega

theorem adj_apply (c : Dev nD) (t : Fin cfg0.N) (p : Fin 2048) (x : Fin 1024) (r : Fin 8192) (j : Fin 8192)
    (hr : r.val = 2048 * (t.val / 8) + p.val) (hj : j.val = 1024 * (t.val % 8) + x.val) :
    adjBlk m c t (ix2 p x) = adjArr m c (ix2 r j) := by
  obtain ⟨-, -, -, -, e0, e1, -⟩ := idx_facts t
  unfold adjBlk adjArr iblk
  rw [View.read_apply]
  show V m c main_arg1 _ = V m c main_arg1 _
  refine congrArg (V m c main_arg1) (funext fun a => Fin.ext ?_)
  match a with
  | ⟨0, _⟩ => show win0_2.index t (0 : Fin 2) * 2048 + 1 * p.val = r.val; rw [e0, hr]; omega
  | ⟨1, _⟩ => show win0_2.index t (1 : Fin 2) * 1024 + 1 * x.val = j.val; rw [e1, hj]; omega

end Cert.KernelIdeal.Blocks

end
-- ==== Proof.Heads.lean ====
/-
  The three arrays the region is handed, as the host lines before it computed them: the queries x Wq + bq, the keys
  x Wk + bk narrowed to bf16 (no change over the extended reals), and the adjacency matrix, an argument as launched.
-/
import proofs.«132343_j5600637354122_2_alg».proof.Proof.Blocks
import Idealize.ShloMosaic.Lib.StableHlo.Run
import Idealize.ShloMosaic.Lib.Tactic
import Idealize.ShloMosaic.PureOps.Ideal.Laws

set_option maxRecDepth 16384

noncomputable section

open Idealize.ShloMosaic Idealize.ShloMosaic.TcCoe Idealize.SL.Sem Idealize.ShloMosaic.StableHlo

namespace Cert.KernelIdeal.Heads

open Cert.KernelIdeal Cert.KernelIdeal.Gen Cert.KernelIdeal.Blocks

/-- A dense layer x W + b in the host's spelling: the product, and the bias as a row broadcast down the rows. -/
def affineK (x : FVec Ideal S8192x256 .f32) (W : FVec Ideal S256x256 .f32) (b : FVec Ideal S256 .f32) : FVec Ideal S8192x256 .f32 :=
  addf (Host.dotGeneral dot_S8192x256_S256x256_S8192x256_1_0_0_1_n_n none x W)
    (broadcastInDim S8192x256 ![0, 1] bcast_S1x256_S8192x256_0_1 (broadcastInDim S1x256 ![1] bcast_S256_S1x256_1 b))

variable (m : (ℓ : Loc nD τ sig) → Buf (Elt Ideal) ℓ)

theorem qry_eq (c : Dev nD) :
    qryArr m c = affineK (m ((c : Thread nD τ).loc main_arg0)) (m ((c : Thread nD τ).loc main_arg2)) (m ((c : Thread nD τ).loc main_arg3)) := by
  unfold qryArr
  show StableHlo.after hostOps0 (fun b => m (c, b)) (Proc.devRef .tc main_v3) = _
  after_results
  rfl

theorem key_eq (c : Dev nD) :
    keyArr m c = truncf .bf16 (affineK (m ((c : Thread nD τ).loc main_arg0)) (m ((c : Thread nD τ).loc main_arg4)) (m ((c : Thread nD τ).loc main_arg5))) bitsLt_bf16_f32 := by
  unfold keyArr
  show StableHlo.after hostOps0 (fun b => m (c, b)) (Proc.devRef .tc main_v8) = _
  after_results
  rfl

theorem adj_eq (c : Dev nD) : adjArr m c = m ((c : Thread nD τ).loc main_arg1) := V_main_arg1 m c

end Cert.KernelIdeal.Heads

end
-- ==== Proof.Tail.lean ====
/-
  What the host does with the row sums. Both programs end the same way: a softmax over the 8192 row sums s (subtract
  the maximum, exponentiate, divide by the sum), returned as the second result, and every row of the values v scaled by
  its softmax weight, returned as the first. The two are wrapped here as functions of s and v, so that the claim comes
  down to the two programs having the same s and the same v; the softmax itself is never opened.
-/
import proofs.«132343_j5600637354122_2_alg».proof.Proof.Gen.KernelIdeal.Frame
import proofs.«132343_j5600637354122_2_alg».proof.Proof.Heads
import Idealize.ShloMosaic.Lib.Pipeline.Value
import Idealize.ShloMosaic.Lib.StableHlo.Run
import Idealize.ShloMosaic.Lib.Tactic
import Idealize.ShloMosaic.PureOps.Ideal.Laws

set_option maxRecDepth 16384

noncomputable section

open Idealize.ShloMosaic Idealize.ShloMosaic.TcCoe Idealize.SL.Sem Idealize.ShloMosaic.StableHlo

namespace Cert.KernelIdeal.Tail

open Cert.KernelIdeal Cert.KernelIdeal.Gen

/-- The maximum of the row sums, spread back over the 8192 positions. -/
def maxOf (s : FVec Ideal S8192 .f32) : FVec Ideal S8192 .f32 :=
  broadcastInDim S8192 ![0] bcast_S1_S8192_0 (broadcastInDim S1 ![] bcast_S_S1
    (maximumf (constant (F := Ideal) S_ .f32 0xFF800000#32)
      (Host.reduce FloatOps.maximumf s (constant (F := Ideal) S_ .f32 0xFF800000#32) reducesTo_S8192_S_d0 h_S_)))

/-- The softmax weights of the row sums. -/
def alphaOf (s : FVec Ideal S8192 .f32) : FVec Ideal S8192 .f32 :=
  Host.divf (Host.exp (subf s (maxOf s)))
    (broadcastInDim S8192 ![0] bcast_S1_S8192_0 (broadcastInDim S1 ![] bcast_S_S1
      (Host.reduceAdd (Host.exp (subf s (maxOf s))) (constant (F := Ideal) S_ .f32 0x00000000#32) reducesTo_S8192_S_d0 h_S_)))

/-- The values, each row scaled by its weight. -/
def outOf (s : FVec Ideal S8192 .f32) (v : FVec Ideal S8192x256 .f32) : FVec Ideal S8192x256 .f32 :=
  mulf (broadcastInDim S8192x256 ![0, 1] bcast_S8192x1_S8192x256_0_1 (broadcastInDim S8192x1 ![0] bcast_S8192_S8192x1_0 (alphaOf s))) v

variable (m : (ℓ : Loc nD τ sig) → Buf (Elt Ideal) ℓ)

/-- The row sums as the host reads them: the kernel's output column recast as a vector. -/
def rowSums (c : Dev nD) : FVec Ideal S8192 .f32 :=
  shapeCast S8192 ((dats m 0 c).arrAt 3 cfg0.N : FVec Ideal S8192x1 .f32) shapeCasts_S8192x1_S8192

/-- The values the host computed before the region: x Wv + bv. -/
def valuesK (c : Dev nD) : FVec Ideal S8192x256 .f32 :=
  Cert.KernelIdeal.Heads.affineK (m ((c : Thread nD τ).loc main_arg0)) (m ((c : Thread nD τ).loc main_arg6)) (m ((c : Thread nD τ).loc main_arg7))

/-- The region's output array, as the lines after the region find it, is what the run left in it. -/
theorem arr13 (c : Dev nD) :
    Pipeline.withArrays (cfgs 0).spec c (V0 m c) (fun w => (dats m 0 c).arrAt w (cfgs 0).N) (Proc.tc.devRef main_v13)
      = (dats m 0 c).arrAt 3 cfg0.N :=
  Pipeline.withArrays_arr spec0 launch0.win.arr_inj c _ _ 3

/-- The values buffer is no array of the region: the lines after the region find it as the lines before left it. -/
theorem v12 (c : Dev nD) :
    Pipeline.withArrays (cfgs 0).spec c (V0 m c) (fun w => (dats m 0 c).arrAt w (cfgs 0).N) (Proc.tc.devRef main_v12)
      = valuesK m c := by
  rw [Pipeline.withArrays_of_ne _ c (V0 m c) _ main_v12 (by exact (by decide : ∀ w, Pipeline.arrRef spec0 w ≠ main_v12))]
  show StableHlo.after hostOps0 (fun b => m (c, b)) (Proc.devRef .tc main_v12) = _
  after_results
  rfl

/-- The second result: the softmax of the row sums. -/
theorem alpha_res (c : Dev nD) :
    Pipeline.afterTail₀ cfgs (dats m) 0 (V0 m) [hostOps1] c main_v24 = alphaOf (rowSums m c) := by
  unfold Pipeline.afterTail₀
  show StableHlo.after hostOps1 _ (Proc.devRef .tc main_v24) = _
  after_results
  rw [arr13 m c]
  rfl

/-- The first result: the values scaled by the softmax. -/
theorem out_res (c : Dev nD) :
    Pipeline.afterTail₀ cfgs (dats m) 0 (V0 m) [hostOps1] c main_v27 = outOf (rowSums m c) (valuesK m c) := by
  unfold Pipeline.afterTail₀
  show StableHlo.after hostOps1 _ (Proc.devRef .tc main_v27) = _
  after_results
  rw [arr13 m c, v12 m c]
  rfl

end Cert.KernelIdeal.Tail

end
-- ==== Proof.KernelRun.lean ====
/-
  The idealized kernel's run with its two results named: every weakly fair execution terminates with the first result
  at the values scaled by the softmax of the row sums, the second at that softmax, and the eight arguments unchanged.
  The row sums are the region's output column as the run left it; the host lines after the region are applied to it.
-/
import proofs.«132343_j5600637354122_2_alg».proof.Proof.Tail

set_option maxRecDepth 16384

noncomputable section

open Idealize.ShloMosaic Idealize.ShloMosaic.TcCoe Idealize.SL.Sem
open Idealize.ShloMosaic.Pipeline (Dat)

namespace Cert.KernelIdeal.KernelRun

open Cert.KernelIdeal Cert.KernelIdeal.Gen Cert.KernelIdeal.Tail

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v27) = outOf (rowSums m c) (valuesK m c)
      ∧ r.2.mem ((c.tc : Thread nD τ).loc main_v24) = alphaOf (rowSums m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).2 main_v27 (Pipeline.mem_restRefs_of main_v27 (by decide) (by decide))).trans (out_res m c),
      ((h c).2 main_v24 (Pipeline.mem_restRefs_of main_v24 (by decide) (by decide))).trans (alpha_res m c),
      (((h c).2 main_arg0 (Pipeline.mem_restRefs_of main_arg0 (by decide) (by decide))).trans (W_main_arg0 m (dats m) c)),
      ((h c).1 2).trans (((dats m 0 c).arrAt_in 2 rfl _).trans ((A_eq m c 2).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.KernelRun

end
-- ==== Proof.Pieces.lean ====
/-
  What each kind of grid point leaves behind, read back as values. The kernel walks a 4 x 8 grid: for each of four
  blocks of 2048 query rows it sweeps eight blocks of 1024 keys, carrying a [2048, 256] accumulator between points.
  The first point of a sweep zeroes the accumulator before adding its block product; every point adds the product of
  its adjacency block with its key block; the last point of a sweep also writes the output block, the row-wise
  contraction of the query block with the finished accumulator.
-/
import proofs.«132343_j5600637354122_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- After a point in the middle of a row of blocks: the carried accumulator, found holding xs, ends holding the
    accumulation step of the adjacency block, xs and the key block. -/
theorem scr_B (c : Dev nD) (i : grid0.Coords) (arg2 : Memref sig .tc .vmem S2048x256 .f32) (harg2 : arg2.IsWhole) (arg3 : Memref sig .tc .vmem S1024x256 .bf16) (harg3 : arg3.IsWhole) (arg4 : Memref sig .tc .vmem S2048x1024 .f32) (harg4 : arg4.IsWhole) (arg5 : Memref sig .tc .vmem S2048x1 .f32) (harg5 : arg5.IsWhole) (arg6 : Memref sig .tc .vmem S2048x256 .f32) (harg6 : arg6.IsWhole) (hc0 : ¬cond0_0 i) (hc1 : ¬cond0_1 i) (x0 : Vec F S2048x256 .f32) (x1 : Vec F S1024x256 .bf16) (x2 : Vec F S2048x1024 .f32) (xs0 : Vec F S2048x256 .f32) :
    sout0_B_0 c i arg2 harg2 arg3 harg3 arg4 harg4 arg5 harg5 arg6 harg6 hc0 hc1 x0 x1 x2 xs0 = k0_pay2 x2 xs0 x1 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz]
  simp only [View.readAt_eq_ld, harg3.read_unread, harg4.read_unread, harg6.read_unread,
    View.ld_unit_zero (S := S2048x256) hz, View.ld_unit_zero (S := S2048x1024) hz, View.ld_unit_zero (S := S1024x256) hz]

/-- After the first point of a row of blocks: the accumulator is zeroed, read back, and ends holding the accumulation
    step over the zero block. -/
theorem scr_A (c : Dev nD) (i : grid0.Coords) (arg2 : Memref sig .tc .vmem S2048x256 .f32) (harg2 : arg2.IsWhole) (arg3 : Memref sig .tc .vmem S1024x256 .bf16) (harg3 : arg3.IsWhole) (arg4 : Memref sig .tc .vmem S2048x1024 .f32) (harg4 : arg4.IsWhole) (arg5 : Memref sig .tc .vmem S2048x1 .f32) (harg5 : arg5.IsWhole) (arg6 : Memref sig .tc .vmem S2048x256 .f32) (harg6 : arg6.IsWhole) (hc0 : cond0_0 i) (hc1 : ¬cond0_1 i) (x0 : Vec F S2048x256 .f32) (x1 : Vec F S1024x256 .bf16) (x2 : Vec F S2048x1024 .f32) :
    sout0_A_0 c i arg2 harg2 arg3 harg3 arg4 harg4 arg5 harg5 arg6 harg6 hc0 hc1 x0 x1 x2 = k0_pay2 x2 (k0_pay1 (F := F)) x1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S2048x256) hz, View.readCov_unit_zero (S := S2048x256) _ hz]
  simp only [View.readAt_eq_ld, harg3.read_unread, harg4.read_unread,
    View.ld_unit_zero (S := S2048x1024) hz, View.ld_unit_zero (S := S1024x256) hz]

/-- After the last point of a row of blocks the accumulator has taken the same step, -/
theorem scr_C (c : Dev nD) (i : grid0.Coords) (arg2 : Memref sig .tc .vmem S2048x256 .f32) (harg2 : arg2.IsWhole) (arg3 : Memref sig .tc .vmem S1024x256 .bf16) (harg3 : arg3.IsWhole) (arg4 : Memref sig .tc .vmem S2048x1024 .f32) (harg4 : arg4.IsWhole) (arg5 : Memref sig .tc .vmem S2048x1 .f32) (harg5 : arg5.IsWhole) (arg6 : Memref sig .tc .vmem S2048x256 .f32) (harg6 : arg6.IsWhole) (hc0 : ¬cond0_0 i) (hc1 : cond0_1 i) (x0 : Vec F S2048x256 .f32) (x1 : Vec F S1024x256 .bf16) (x2 : Vec F S2048x1024 .f32) (xs0 : Vec F S2048x256 .f32) :
    sout0_C_0 c i arg2 harg2 arg3 harg3 arg4 harg4 arg5 harg5 arg6 harg6 hc0 hc1 x0 x1 x2 xs0 = k0_pay2 x2 xs0 x1 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg3.read_unread, harg4.read_unread, harg6.read_unread,
    View.ld_unit_zero (S := S2048x256) hz, View.ld_unit_zero (S := S2048x1024) hz, View.ld_unit_zero (S := S1024x256) hz]

/-- and the output block is the row-wise contraction of the query block with that accumulator. -/
theorem out_C (c : Dev nD) (i : grid0.Coords) (arg2 : Memref sig .tc .vmem S2048x256 .f32) (harg2 : arg2.IsWhole) (arg3 : Memref sig .tc .vmem S1024x256 .bf16) (harg3 : arg3.IsWhole) (arg4 : Memref sig .tc .vmem S2048x1024 .f32) (harg4 : arg4.IsWhole) (arg5 : Memref sig .tc .vmem S2048x1 .f32) (harg5 : arg5.IsWhole) (arg6 : Memref sig .tc .vmem S2048x256 .f32) (harg6 : arg6.IsWhole) (hc0 : ¬cond0_0 i) (hc1 : cond0_1 i) (x0 : Vec F S2048x256 .f32) (x1 : Vec F S1024x256 .bf16) (x2 : Vec F S2048x1024 .f32) (xs0 : Vec F S2048x256 .f32) :
    out0_C_3 c i arg2 harg2 arg3 harg3 arg4 harg4 arg5 harg5 arg6 harg6 hc0 hc1 x0 x1 x2 xs0 = k0_pay3 x0 (k0_pay2 x2 xs0 x1) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S2048x256) _ hz]
  simp only [View.readAt_eq_ld, harg2.read_unread, harg3.read_unread, harg4.read_unread, harg6.read_unread,
    View.ld_unit_zero (S := S2048x256) hz, View.ld_unit_zero (S := S2048x1024) hz, View.ld_unit_zero (S := S1024x256) hz]

end Cert.KernelIdeal.Pieces
end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibRowReduce.lean ====
/-
  Reductions of an n x k array along its rows, read at a row given by its coordinate. The reduced index (r) with the
  inner coordinate j put back is the array index (r, j); so a lane sum at r is the finite sum over j of the entries
  (r, j), a lane maximum is the fold of max over them from the accumulator's value, and the host's sum and maximum
  over the same axis are the same sum (after the initial value) and the same fold (from the initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Row r's reduced index with the inner coordinate j inserted is (r, j). -/
theorem lift_row {n k : ℕ} (h : (⟨2, ![n, k]⟩ : Shape).Reduces [1] (⟨1, ![n]⟩ : Shape)) (r : Fin n)
    (j : Fin ((⟨2, ![n, k]⟩ : Shape).size 1)) : h.lift (ix1 r) j = ix2 r (⟨j.val, j.isLt⟩ : Fin k) := by
  funext c; apply Fin.ext
  fin_cases c <;> rfl

/-- A lane sum over the second axis, at row r: the sum of the row's entries. -/
theorem multiReduction_add_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.add.neutral φ hφ) (r : Fin n) :
    multiReduction .add [1] (⟨1, ![n]⟩ : Shape) src acc h hφ hacc (ix1 r) = ∑ j : Fin k, (src (ix2 r j) : EReal) :=
  (Ideal.multiReduction_add_single src acc h hφ hacc (ix1 r)).trans
    (Finset.sum_congr rfl fun j _ => congrArg src (lift_row h r j))

/-- A lane maximum over the second axis, at row r: the fold of max over the row's entries from the accumulator's value. -/
theorem multiReduction_max_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.maximumf.neutral φ hφ) (r : Fin n) :
    multiReduction .maximumf [1] (⟨1, ![n]⟩ : Shape) src acc h hφ hacc (ix1 r)
      = (Finset.univ : Finset (Fin k)).fold max (Ideal.ofBits φ acc) (fun j => (src (ix2 r j) : EReal)) :=
  (Ideal.multiReduction_maximumf_single src acc h hφ hacc (ix1 r)).trans
    (congrArg (fun f => Finset.fold max (Ideal.ofBits φ acc) f (Finset.univ : Finset (Fin k)))
      (funext fun j => congrArg src (lift_row h r j)))

/-- The host's sum over the second axis, at row r: the initial value plus the sum of the row's entries. -/
theorem hostReduceAdd_row {n k : ℕ} (h' : (⟨2, ![n, k]⟩ : Shape).ReducesTo [1] (⟨1, ![n]⟩ : Shape))
    (h : (⟨2, ![n, k]⟩ : Shape).Reduces [1] (⟨1, ![n]⟩ : Shape)) (x : (⟨2, ![n, k]⟩ : Shape).Idx → EReal) (init : EReal) (r : Fin n) :
    Ideal.hostReduceAdd h' x init (ix1 r) = init + ∑ j : Fin k, x (ix2 r j) :=
  (Ideal.hostReduceAdd_single h' h x init (ix1 r)).trans
    (congrArg (init + ·) (Finset.sum_congr rfl fun j _ => congrArg x (lift_row h r j)))

/-- The host's maximum over the second axis, at row r: the fold of max over the row's entries from the initial value. -/
theorem hostReduce_max_row {n k : ℕ} {φ : FTy} {u : Shape} (h' : (⟨2, ![n, k]⟩ : Shape).ReducesTo [1] (⟨1, ![n]⟩ : Shape))
    (h : (⟨2, ![n, k]⟩ : Shape).Reduces [1] (⟨1, ![n]⟩ : Shape)) (x : FVec Ideal (⟨2, ![n, k]⟩ : Shape) φ) (init : u.Idx → Ideal φ)
    (hu : 0 < u.numel) (r : Fin n) :
    Host.reduce FloatOps.maximumf x init h' hu (ix1 r)
      = (Finset.univ : Finset (Fin k)).fold max (init (Shape.Idx.first hu) : EReal) (fun j => (x (ix2 r j) : EReal)) :=
  (Host.reduce_eq_fold_single FloatOps.maximumf x init h' h hu (ix1 r)).trans
    (congrArg (fun f => Finset.fold max (init (Shape.Idx.first hu) : EReal) f (Finset.univ : Finset (Fin k)))
      (funext fun j => congrArg x (lift_row h r j)))

/-- Folding max from a value b over any entries gives something at least b: taking the maximum with b again changes nothing. -/
theorem max_fold_max_self {ι : Type} (s : Finset ι) (b : EReal) (f : ι → EReal) : max b (s.fold max b f) = s.fold max b f :=
  max_eq_right (Finset.le_fold_max b |>.mpr (Or.inl le_rfl))

end Idealize.ShloMosaic.ValueIdx

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payloads.lean ====
/-
  The kernel body's three stored values read at an index, over the extended reals: the zero block, one accumulation
  step (a matrix-unit product of a [2048, 1024] adjacency block with a [1024, 256] key block added to the
  accumulator; the narrowing of the adjacency entries changes nothing here), and the final row-wise contraction of the
  query block with the accumulator (a lane sum of the entrywise product, kept as a column).
-/
import proofs.«132343_j5600637354122_2_alg».proof.Proof.Pieces
import proofs.«132343_j5600637354122_2_alg».proof.Proof.LibDotIx2
import proofs.«132343_j5600637354122_2_alg».proof.Proof.LibRowReduce
import proofs.«132343_j5600637354122_2_alg».proof.Proof.LibKeepdims
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.KernelIdeal.Payloads

open Cert.KernelIdeal Cert.KernelIdeal.Gen

/-- The block product's dimension numbers are those of a plain [2048, 1024] x [1024, 256] product. -/
theorem plainDot_block : PlainDot dot_S2048x1024_S1024x256_S2048x256_1_0_0_1_n_n where
  rank := rfl
  size := rfl
  l0 := fun j q => by
    unfold DotDims.lhsIdx
    rw [dif_neg (show ¬(0 : Fin S2048x1024.rank) ∈ dot_S2048x1024_S1024x256_S2048x256_1_0_0_1_n_n.lhsBatch by decide),
      dif_pos (show (0 : Fin S2048x1024.rank) ∈ dot_S2048x1024_S1024x256_S2048x256_1_0_0_1_n_n.lhsNonContracting by decide)]
    rfl
  l1 := fun j q => dot_S2048x1024_S1024x256_S2048x256_1_0_0_1_n_n.lhsIdx_val_of_single rfl j q
  r0 := fun j q => dot_S2048x1024_S1024x256_S2048x256_1_0_0_1_n_n.rhsIdx_val_of_single rfl j q
  r1 := fun j q => by
    unfold DotDims.rhsIdx
    rw [dif_neg (show ¬(1 : Fin S1024x256.rank) ∈ dot_S2048x1024_S1024x256_S2048x256_1_0_0_1_n_n.rhsBatch by decide),
      dif_pos (show (1 : Fin S1024x256.rank) ∈ dot_S2048x1024_S1024x256_S2048x256_1_0_0_1_n_n.rhsNonContracting by decide)]
    rfl

/-- The block the first point of a sweep stores is zero everywhere. -/
theorem zero_block_apply (i : S2048x256.Idx) : (k0_pay1 (F := Ideal) i : EReal) = 0 := by
  unfold k0_pay1
  simp only [shapeCast_self]
  exact Ideal.ofBits_zero_f32

/-- One accumulation step at row p and column d: what the accumulator held plus the product of row p of the
    adjacency block with column d of the key block. -/
theorem step_apply (adj : Vec Ideal S2048x1024 .f32) (acc : Vec Ideal S2048x256 .f32) (key : Vec Ideal S1024x256 .bf16)
    (p : Fin 2048) (d : Fin 256) :
    (k0_pay2 (F := Ideal) adj acc key (ix2 p d) : EReal)
      = (acc (ix2 p d) : EReal) + ∑ cc : Fin 1024, (adj (ix2 p cc) : EReal) * (key (ix2 cc d) : EReal) := by
  unfold k0_pay2
  simp only [shapeCast_self]
  refine (addf_apply _ _ _).trans ?_
  refine congrArg ((acc (ix2 p d) : EReal) + ·) ?_
  exact matmul_zero_ix2_any plainDot_block none (truncf .bf16 adj bitsLt_bf16_f32) key p d

/-- The output block at row p: the contraction of row p of the query block with row p of the accumulator. -/
theorem contract_apply (qry : Vec Ideal S2048x256 .f32) (acc : Vec Ideal S2048x256 .f32) (p : Fin 2048) (u : Fin 1) :
    (k0_pay3 (F := Ideal) qry acc (ix2 p u) : EReal) = ∑ d : Fin 256, (qry (ix2 p d) : EReal) * (acc (ix2 p d) : EReal) := by
  unfold k0_pay3
  simp only [shapeCast_self]
  refine (shapeCast_a_a1_apply _ _ p u).trans ?_
  exact multiReduction_add_row (mulf qry acc) 0x00000000#32 reduces_S2048x256_S2048 (.inl rfl) rfl p

end Cert.KernelIdeal.Payloads

end
-- ==== Proof.Accumulate.lean ====
/-
  The accumulator point by point. Grid position n = 8 * i + j is block row i, key tile j. After the body at position n
  the carried accumulator holds, at row p and column d, the sum over the key tiles 0 .. j of this block row of the
  product of the adjacency block with the key block: it is zeroed at j = 0 and each point adds its own product. At
  j = 7 the output block holds the contraction of the query block with that finished sum. Proved by induction on the
  position, never by enumerating the grid.
-/
import proofs.«132343_j5600637354122_2_alg».proof.Proof.Payloads
import proofs.«132343_j5600637354122_2_alg».proof.Proof.Blocks

set_option maxRecDepth 16384

noncomputable section

open scoped BigOperators
open Idealize.ShloMosaic Idealize.ShloMosaic.TcCoe Idealize.SL.Sem Idealize.ShloMosaic.ValueIdx

namespace Cert.KernelIdeal.Accumulate

open Cert.KernelIdeal Cert.KernelIdeal.Gen Cert.KernelIdeal.Pieces Cert.KernelIdeal.Payloads Cert.KernelIdeal.Blocks

variable (m : (ℓ : Loc nD τ sig) → Buf (Elt Ideal) ℓ)

/-- At the first point of a sweep the accumulator ends at one step over the zero block. -/
theorem first_eq (c : Dev nD) (t : Fin cfg0.N) (h0 : t.val % 8 = 0) (h1 : ¬t.val % 8 = 7) :
    (outsAt0 m c t.val t.isLt).2 = k0_pay2 (F := Ideal) (adjBlk m c t) (k0_pay1 (F := Ideal)) (keyBlk m c t) := by
  rw [outsAt0_A m c t h0 h1]
  dsimp only
  rw [scr_A]
  rfl

/-- At every later point of a sweep it ends at one step over what the point before left. -/
theorem later_eq (c : Dev nD) (t : Fin cfg0.N) (h0 : ¬t.val % 8 = 0) :
    (outsAt0 m c t.val t.isLt).2
      = k0_pay2 (F := Ideal) (adjBlk m c t) (outsAt0 m c (t.val - 1) (Nat.lt_of_le_of_lt (Nat.sub_le _ _) t.isLt)).2 (keyBlk m c t) := by
  by_cases h1 : t.val % 8 = 7
  · rw [outsAt0_C m c t h0 h1]
    dsimp only
    rw [scr_C]
    rfl
  · rw [outsAt0_B m c t h0 h1]
    dsimp only
    rw [scr_B]
    rfl

/-- At the last point of a sweep the output block is the contraction of the query block with the accumulator as this
    point leaves it. -/
theorem last_eq (c : Dev nD) (t : Fin cfg0.N) (h1 : t.val % 8 = 7) :
    (outsAt0 m c t.val t.isLt).1 = k0_pay3 (F := Ideal) (qryBlk m c t) (outsAt0 m c t.val t.isLt).2 := by
  have h0 : ¬t.val % 8 = 0 := by omega
  rw [outsAt0_C m c t h0 h1]
  dsimp only
  rw [out_C, scr_C]
  rfl

/-- The product of the adjacency block and the key block of grid position n, at row p and column d (zero past the grid). -/
def blockProd (c : Dev nD) (n : ℕ) (p : Fin 2048) (d : Fin 256) : EReal :=
  if h : n < cfg0.N then
    ∑ x : Fin 1024, (adjBlk m c ⟨n, h⟩ (ix2 p x) : EReal) * (keyBlk m c ⟨n, h⟩ (ix2 x d) : EReal)
  else 0

/-- The block products of position n's sweep, from its first point up to n, summed. -/
def sweepSum (c : Dev nD) (n : ℕ) (p : Fin 2048) (d : Fin 256) : EReal :=
  ∑ i ∈ Finset.range (n % 8 + 1), blockProd m c (n - n % 8 + i) p d

theorem sweepSum_first (c : Dev nD) (n : ℕ) (hn : n % 8 = 0) (p : Fin 2048) (d : Fin 256) :
    sweepSum m c n p d = blockProd m c n p d := by
  unfold sweepSum
  simp only [hn, Nat.zero_add, Nat.sub_zero, Finset.sum_range_one, Nat.add_zero]

theorem sweepSum_later (c : Dev nD) (n : ℕ) (hn : ¬(n + 1) % 8 = 0) (p : Fin 2048) (d : Fin 256) :
    sweepSum m c (n + 1) p d = sweepSum m c n p d + blockProd m c (n + 1) p d := by
  unfold sweepSum
  have h1 : (n + 1) % 8 = n % 8 + 1 := by omega
  have h2 : n + 1 - (n % 8 + 1) = n - n % 8 := by omega
  have h3 : n - n % 8 + (n % 8 + 1) = n + 1 := by omega
  rw [h1, h2, Finset.sum_range_succ, h3]

/-- THE INVARIANT: after the body at position n the accumulator holds the sweep's block products summed. -/
theorem acc_eq (c : Dev nD) : ∀ (n : ℕ) (h : n < cfg0.N) (p : Fin 2048) (d : Fin 256),
    ((outsAt0 m c n h).2 (ix2 p d) : EReal) = sweepSum m c n p d
  | 0, h, p, d => by
    have e : (outsAt0 m c 0 h).2 = k0_pay2 (F := Ideal) (adjBlk m c ⟨0, h⟩) (k0_pay1 (F := Ideal)) (keyBlk m c ⟨0, h⟩) :=
      first_eq m c ⟨0, h⟩ rfl (by dsimp only; omega)
    rw [e, sweepSum_first m c 0 rfl]
    refine (step_apply (adjBlk m c ⟨0, h⟩) (k0_pay1 (F := Ideal)) (keyBlk m c ⟨0, h⟩) p d).trans ?_
    rw [zero_block_apply, zero_add]
    unfold blockProd
    rw [dif_pos h]
  | n + 1, h, p, d => by
    by_cases h0 : (n + 1) % 8 = 0
    · have e : (outsAt0 m c (n + 1) h).2
          = k0_pay2 (F := Ideal) (adjBlk m c ⟨n + 1, h⟩) (k0_pay1 (F := Ideal)) (keyBlk m c ⟨n + 1, h⟩) :=
        first_eq m c ⟨n + 1, h⟩ h0 (by dsimp only; omega)
      rw [e, sweepSum_first m c (n + 1) h0]
      refine (step_apply (adjBlk m c ⟨n + 1, h⟩) (k0_pay1 (F := Ideal)) (keyBlk m c ⟨n + 1, h⟩) p d).trans ?_
      rw [zero_block_apply, zero_add]
      unfold blockProd
      rw [dif_pos h]
    · have e : (outsAt0 m c (n + 1) h).2
          = k0_pay2 (F := Ideal) (adjBlk m c ⟨n + 1, h⟩) (outsAt0 m c n (Nat.lt_of_succ_lt h)).2 (keyBlk m c ⟨n + 1, h⟩) :=
        later_eq m c ⟨n + 1, h⟩ h0
      rw [e, sweepSum_later m c n h0]
      refine (step_apply (adjBlk m c ⟨n + 1, h⟩) (outsAt0 m c n (Nat.lt_of_succ_lt h)).2 (keyBlk m c ⟨n + 1, h⟩) p d).trans ?_
      rw [acc_eq c n (Nat.lt_of_succ_lt h) p d]
      unfold blockProd
      rw [dif_pos h]

/-- At the last point of a sweep, the output block at row p: the query block's row p contracted with the sweep's sum. -/
theorem out_eq (c : Dev nD) (t : Fin cfg0.N) (h1 : t.val % 8 = 7) (p : Fin 2048) (u : Fin 1) :
    ((outsAt0 m c t.val t.isLt).1 (ix2 p u) : EReal)
      = ∑ d : Fin 256, (qryBlk m c t (ix2 p d) : EReal) * sweepSum m c t.val p d := by
  rw [last_eq m c t h1]
  refine (contract_apply (qryBlk m c t) (outsAt0 m c t.val t.isLt).2 p u).trans ?_
  exact Finset.sum_congr rfl fun d _ => congrArg (_ * ·) (acc_eq m c t.val t.isLt p d)

end Cert.KernelIdeal.Accumulate

end
-- ==== Proof.LibTileSum.lean ====
/-
  Sums over tiled and over unit-axis index sets, over any additive commutative monoid.

  * A sum over the indices of a rank-4 shape [n0, 1, n2, n3] is the triple sum over its coordinates on axes 0, 2, 3.
  * A sum over a * b positions is the sum over a tiles of the sum over the b positions of each tile, position r of
    tile t being b * t + r.
  * A sequence that starts at zero and adds f n at step n is the running sum of f.
-/
import Idealize.ShloMosaic.Lib.ValueIdx

noncomputable section

open scoped BigOperators

namespace Cert.Lib.TileSum

open Idealize.ShloMosaic Idealize.ShloMosaic.ValueIdx

/-! ## A rank-4 index set with a unit second axis is the product of its three other coordinate ranges -/

/-- An index of shape `[n0, 1, n2, n3]` is its coordinates on axes 0, 2, 3 (axis 1 has one point). -/
def idxEquiv4u {n0 n2 n3 : Nat} : (⟨4, ![n0, 1, n2, n3]⟩ : Shape).Idx ≃ Fin n0 × Fin n2 × Fin n3 where
  toFun i := (i 0, i 2, i 3)
  invFun p := ix4 p.1 (0 : Fin 1) p.2.1 p.2.2
  left_inv i := by
    funext a
    match a with
    | ⟨0, _⟩ => rfl
    | ⟨1, _⟩ => exact Subsingleton.elim (α := Fin 1) _ _
    | ⟨2, _⟩ => rfl
    | ⟨3, _⟩ => rfl
  right_inv _ := rfl

/-- A sum over every index of shape `[n0, 1, n2, n3]` is the triple sum over the coordinates on axes 0, 2, 3. -/
theorem sum_idx4u {M : Type*} [AddCommMonoid M] {n0 n2 n3 : Nat} (f : (⟨4, ![n0, 1, n2, n3]⟩ : Shape).Idx → M) :
    ∑ i, f i = ∑ a : Fin n0, ∑ b : Fin n2, ∑ c : Fin n3, f (ix4 a (0 : Fin 1) b c) := by
  rw [← Equiv.sum_comp (idxEquiv4u (n0 := n0) (n2 := n2) (n3 := n3)).symm f, Fintype.sum_prod_type]
  refine Finset.sum_congr rfl fun a _ => ?_
  rw [Fintype.sum_prod_type]
  rfl

/-! ## Tiles -/

section Laws
variable {M : Type*} [AddCommMonoid M]

/-- Position `r` of tile `t`, among `a` tiles of `b` positions each, is below `a * b`. -/
theorem tile_lt {a b t r : ℕ} (ht : t < a) (hr : r < b) : b * t + r < a * b :=
  calc b * t + r < b * t + b := Nat.add_lt_add_left hr _
    _ = b * (t + 1) := (Nat.mul_succ b t).symm
    _ ≤ b * a := Nat.mul_le_mul_left b ht
    _ = a * b := Nat.mul_comm b a

/-- A sum over `a * b` positions is the sum over `a` tiles of the sum over the `b` positions of each tile. -/
theorem sum_fin_tiles (a b : ℕ) (g : Fin (a * b) → M) :
    ∑ n, g n = ∑ t : Fin a, ∑ r : Fin b, g ⟨b * t.val + r.val, tile_lt t.isLt r.isLt⟩ := by
  rw [← Equiv.sum_comp (finProdFinEquiv (m := a) (n := b)) g, Fintype.sum_prod_type]
  refine Finset.sum_congr rfl fun t _ => Finset.sum_congr rfl fun r _ => congrArg g (Fin.ext ?_)
  show r.val + b * t.val = b * t.val + r.val
  exact Nat.add_comm _ _

/-- THE FOLD LAW: a sequence that starts at zero and adds `f n` at step `n` is the running sum of `f`. -/
theorem fold_eq_sum (f g : ℕ → M) (h0 : g 0 = 0) (hs : ∀ n, g (n + 1) = g n + f n) (n : ℕ) :
    g n = ∑ i ∈ Finset.range n, f i := by
  induction n with
  | zero => rw [h0, Finset.range_zero, Finset.sum_empty]
  | succ n ih => rw [hs, ih, Finset.sum_range_succ]

end Laws

end Cert.Lib.TileSum

end
-- ==== Proof.Final.lean ====
/-
  The kernel's output column after the run. The last point of each sweep writes back the block of 2048 rows it owns;
  these four blocks tile the [8192, 1] column. Row r of the column ends holding the query row r contracted with the
  keys aggregated over the eight key tiles: the sum over d of q(r, d) times the sum over the tiles and their 1024
  keys of adj(r, key) * k(key, d).
-/
import proofs.«132343_j5600637354122_2_alg».proof.Proof.Accumulate
import proofs.«132343_j5600637354122_2_alg».proof.Proof.LibTileSum

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Accumulate Cert.Lib.TileSum

variable (m : (ℓ : Loc nD τ sig) → Buf (Elt Ideal) ℓ)

/-- Key number x of key tile jb. -/
abbrev keyIx (jb : Fin 8) (x : Fin 1024) : Fin 8192 := ⟨1024 * jb.val + x.val, tile_lt (a := 8) (b := 1024) jb.isLt x.isLt⟩

/-- What the kernel's output column holds in row r: the query row contracted with the keys aggregated tile by tile. -/
def rowOut (Q : FVec Ideal S8192x256 .f32) (K : FVec Ideal S8192x256 .bf16) (A : FVec Ideal S8192x8192 .f32) :
    FVec Ideal S8192x1 .f32 :=
  fun i => ∑ d : Fin 256, (Q (ix2 (i 0) d) : EReal)
    * ∑ jb : Fin 8, ∑ x : Fin 1024, (A (ix2 (i 0) (keyIx jb x)) : EReal) * (K (ix2 (keyIx jb x) d) : EReal)

/-- At the last point of a sweep the sweep's sum is the whole aggregation of the keys for the rows of its block. -/
theorem sweepSum_last (c : Dev nD) (t : Fin cfg0.N) (h7 : t.val % 8 = 7) (p : Fin 2048) (d : Fin 256) (r : Fin 8192)
    (hr : r.val = 2048 * (t.val / 8) + p.val) :
    sweepSum m c t.val p d
      = ∑ jb : Fin 8, ∑ x : Fin 1024, (adjArr m c (ix2 r (keyIx jb x)) : EReal) * (keyArr m c (ix2 (keyIx jb x) d) : EReal) := by
  have hN : t.val < 32 := lt_of_lt_of_eq t.isLt (show cfg0.N = 32 from N_0)
  have h8 : t.val % 8 + 1 = 8 := by omega
  have h9 : t.val - t.val % 8 = 8 * (t.val / 8) := by omega
  unfold sweepSum
  rw [h8, h9, Finset.sum_range]
  refine Finset.sum_congr rfl fun jb _ => ?_
  have hn : 8 * (t.val / 8) + jb.val < cfg0.N := lt_of_lt_of_eq (by omega : 8 * (t.val / 8) + jb.val < 32) (show (32 : ℕ) = cfg0.N from N_0.symm)
  unfold blockProd
  rw [dif_pos hn]
  refine Finset.sum_congr rfl fun x _ => ?_
  rw [adj_apply m c ⟨8 * (t.val / 8) + jb.val, hn⟩ p x r (keyIx jb x)
      (by show r.val = 2048 * ((8 * (t.val / 8) + jb.val) / 8) + p.val; omega)
      (by show 1024 * jb.val + x.val = 1024 * ((8 * (t.val / 8) + jb.val) % 8) + x.val; omega),
    key_apply m c ⟨8 * (t.val / 8) + jb.val, hn⟩ x d (keyIx jb x)
      (by show 1024 * jb.val + x.val = 1024 * ((8 * (t.val / 8) + jb.val) % 8) + x.val; omega)]

/-- WHAT THE LAST POINT OF A SWEEP WRITES BACK is its block of the whole output column. -/
theorem flushed_eq (c : Dev nD) (t : Fin cfg0.N) (hf : (cfg0.win 3).flush t = true) :
    (dats m 0 c).flushed 3 t
      = ((cfg0.win 3).blk t).view.read (Elt Ideal) (rowOut (qryArr m c) (keyArr m c) (adjArr m c)) := by
  have h7 : t.val % 8 = 7 := (flush0_3 t).mp hf
  obtain ⟨-, -, -, -, -, -, e0, e1⟩ := idx_facts t
  show (cfg0.win 3).cut (grid0.coords t) ((dats m 0 c).after 3 t) = _
  rw [after0_3]
  funext y
  rw [View.read_apply]
  show ((outsAt0 m c t.val t.isLt).1 y : EReal)
    = rowOut (qryArr m c) (keyArr m c) (adjArr m c) (((cfg0.win 3).blk t).view.emb y)
  have hy : y = ix2 (y 0) (y 1) := eq_ix2 (n0 := 2048) (n1 := 1) y
  refine (congrArg (outsAt0 m c t.val t.isLt).1 hy).trans ?_
  refine (out_eq m c t h7 (y 0) (y 1)).trans ?_
  unfold rowOut
  refine Finset.sum_congr rfl fun d _ => ?_
  have hr : ((((cfg0.win 3).blk t).view.emb y) 0).val = 2048 * (t.val / 8) + (y 0).val := by
    show win0_3.index t (0 : Fin 2) * 2048 + 1 * (y 0).val = _
    rw [e0]; omega
  rw [qry_apply m c t (y 0) d _ hr, sweepSum_last m c t h7 (y 0) d _ hr]

/-- An index of the output column is in a point's block iff each coordinate is in the block's range on its axis. -/
theorem mem_blk (t : Fin cfg0.N) (i : S8192x1.Idx) :
    i ∈ ((cfg0.win 3).blk t).view.set
      ↔ ∀ a : Fin 2, win0_3.index t a * S2048x1.size a ≤ (i a).val ∧ (i a).val < win0_3.index t a * S2048x1.size a + S2048x1.size a := by
  show i ∈ ((View.whole main_v13).slice (win0_3.rect t)).set ↔ _
  rw [View.set_slice_whole, Rect.mem_set_unit]
  exact Iff.rfl

/-- Row r of the output column is written back by the last point of block row r / 2048's sweep. -/
theorem cover (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  have hlt : 8 * ((i 0).val / 2048) + 7 < cfg0.N :=
    lt_of_lt_of_eq (by omega : 8 * ((i 0).val / 2048) + 7 < 32) (show (32 : ℕ) = cfg0.N from N_0.symm)
  refine ⟨⟨8 * ((i 0).val / 2048) + 7, hlt⟩, (flush0_3 _).mpr (by show (8 * ((i 0).val / 2048) + 7) % 8 = 7; omega), ?_⟩
  rw [mem_blk]
  obtain ⟨-, -, -, -, -, -, e0, e1⟩ := idx_facts ⟨8 * ((i 0).val / 2048) + 7, hlt⟩
  intro a
  match a with
  | ⟨0, _⟩ =>
    show win0_3.index ⟨8 * ((i 0).val / 2048) + 7, hlt⟩ (0 : Fin 2) * 2048 ≤ (i 0).val
      ∧ (i 0).val < win0_3.index ⟨8 * ((i 0).val / 2048) + 7, hlt⟩ (0 : Fin 2) * 2048 + 2048
    rw [e0]
    show (8 * ((i 0).val / 2048) + 7) / 8 * 2048 ≤ (i 0).val ∧ (i 0).val < (8 * ((i 0).val / 2048) + 7) / 8 * 2048 + 2048
    omega
  | ⟨1, _⟩ =>
    show win0_3.index ⟨8 * ((i 0).val / 2048) + 7, hlt⟩ (1 : Fin 2) * 1 ≤ (i 1).val
      ∧ (i 1).val < win0_3.index ⟨8 * ((i 0).val / 2048) + 7, hlt⟩ (1 : Fin 2) * 1 + 1
    rw [e1]
    omega

/-- THE OUTPUT COLUMN AFTER THE RUN: in every row, the query row contracted with the tile-by-tile aggregation of the keys. -/
theorem final (c : Dev nD) : (dats m 0 c).arrAt 3 cfg0.N = rowOut (qryArr m c) (keyArr m c) (adjArr m c) :=
  (dats m 0 c).arrAt_eq_of_cover 3 (rowOut (qryArr m c) (keyArr m c) (adjArr m c)) (flushed_eq m c) cover

end Cert.KernelIdeal.Final

end
-- ==== Proof.LibRealEntries.lean ====
/-
  Extended reals that are real numbers, and the one law that joins the two programs' batch normalisations.

  An extended real is called real when it is the image of a real number. Sums, differences, products, maxima and
  quotients by a nonzero real of real entries are real, and so is the reciprocal square root of a positive real.

  The law: for n real numbers a_i and N = n (as a real, nonzero),
      (sum of a_i^2) / N - (sum a_i / N)^2  =  (sum of (a_i - sum a / N)^2) / N,
  the mean of the squares minus the square of the mean is the mean of the squared deviations. It holds for real
  entries only (an infinite entry makes the two sides different infinities), which is why finiteness is carried
  through every layer. The right-hand side is a nonnegative real, so adding a positive epsilon and taking the
  reciprocal square root gives a real number.
-/
import Idealize.ShloMosaic.PureOps.Ideal

noncomputable section

open scoped BigOperators

namespace Cert.Algebra

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsReal.div_real {x : EReal} (hx : IsReal x) {y : ℝ} (hy : y ≠ 0) : IsReal (Ideal.div x (y : EReal)) := by
  rw [Ideal.div_coe hy]; exact hx.mul ⟨_, rfl⟩

/-- The reciprocal square root of a positive real is a real. -/
theorem isReal_rsqrt_pos {r : ℝ} (h : 0 < r) : IsReal (Ideal.rsqrt (r : EReal)) := by
  rw [Ideal.rsqrt_coe, if_neg (not_lt.mpr h.le), if_neg h.ne']
  exact ⟨_, rfl⟩

/-- The mean of the squares minus the square of the mean is the mean of the squared deviations, for real entries. -/
theorem var_eq {n : ℕ} (a : Fin n → EReal) (ha : ∀ i, IsReal (a i)) (N : ℝ) (hN : N ≠ 0) (hn : (n : ℝ) = N) :
    Ideal.div (∑ i, a i * a i) (N : EReal) - Ideal.div (∑ i, a i) (N : EReal) * Ideal.div (∑ i, a i) (N : EReal)
      = Ideal.div (∑ i, (a i - Ideal.div (∑ j, a j) (N : EReal)) * (a i - Ideal.div (∑ j, a j) (N : EReal))) (N : EReal) := by
  choose f hf using ha
  have hfun : a = fun i => (f i : EReal) := funext hf
  subst hfun
  simp only [Ideal.div_coe hN, ← EReal.coe_mul, ← coe_sum, ← EReal.coe_sub]
  refine congrArg _ ?_
  have h1 : ∑ i, (f i - (∑ j, f j) * (1 / N)) * (f i - (∑ j, f j) * (1 / N))
      = ∑ i, f i * f i - 2 * ((∑ j, f j) * (1 / N)) * ∑ i, f i + (n : ℝ) * (((∑ j, f j) * (1 / N)) * ((∑ j, f j) * (1 / N))) := by
    have : ∀ i, (f i - (∑ j, f j) * (1 / N)) * (f i - (∑ j, f j) * (1 / N))
        = f i * f i - 2 * ((∑ j, f j) * (1 / N)) * f i + ((∑ j, f j) * (1 / N)) * ((∑ j, f j) * (1 / N)) := fun i => by ring
    simp only [this, Finset.sum_add_distrib, Finset.sum_sub_distrib, ← Finset.mul_sum, Finset.sum_const, Finset.card_univ,
      Fintype.card_fin, nsmul_eq_mul]
    ring
  rw [h1, hn]
  field_simp
  ring

/-- The mean of the squared deviations of real entries, plus a positive real, has a real reciprocal square root. -/
theorem isReal_rsqrt_var {n : ℕ} (a : Fin n → EReal) (ha : ∀ i, IsReal (a i)) (μ : EReal) (hμ : IsReal μ) (N : ℝ) (hN : 0 < N)
    (e : ℝ) (he : 0 < e) : IsReal (Ideal.rsqrt (Ideal.div (∑ i, (a i - μ) * (a i - μ)) (N : EReal) + (e : EReal))) := by
  choose f hf using ha
  obtain ⟨u, rfl⟩ := hμ
  have hfun : a = fun i => (f i : EReal) := funext hf
  subst hfun
  simp only [Ideal.div_coe hN.ne', ← EReal.coe_mul, ← coe_sum, ← EReal.coe_sub, ← EReal.coe_add]
  refine isReal_rsqrt_pos ?_
  have : 0 ≤ (∑ i, (f i - u) * (f i - u)) * (1 / N) :=
    mul_nonneg (Finset.sum_nonneg fun i _ => mul_self_nonneg _) (by positivity)
  linarith

end Cert.Algebra

end
-- ==== Proof.RefRowSum.lean ====
/-
  The reference's masked row sum at a row r, read off its operations: the sum over the 8192 keys j of the adjacency
  entry (r, j) times the logit of r against j, the logit being the sum over the 256 feature positions d of the query
  entry (r, d) times the key entry (j, d) — the transpose of the keys read back at (j, d), the zero initial value of
  the host's sum dropped.
-/
import proofs.«132343_j5600637354122_2_alg».proof.Proof.Gen.ReferenceIdeal.Read
import Idealize.ShloMosaic.Lib.ValueIdx
import proofs.«132343_j5600637354122_2_alg».proof.Proof.LibRealEntries
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Read

theorem rowSum_apply (x0 : (⟨S8192x256, .f32⟩ : BufTy).Contents (Elt Ideal)) (x1 : (⟨S8192x8192, .f32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) (r : Fin 8192) :
    (val_main_v15 (F := Ideal) x0 x1 x2 x3 x4 x5 (ix1 r) : EReal)
      = ∑ j : Fin 8192, (x1 (ix2 r j) : EReal)
          * ∑ d : Fin 256, (val_main_v3 (F := Ideal) x0 x2 x3 (ix2 r d) : EReal) * (val_main_v7 (F := Ideal) x0 x4 x5 (ix2 j d) : EReal) := by
  rw [val_main_v15_apply]
  have hz : ∀ i, (val_main_cst (F := Ideal) i : EReal) = 0 := fun _ => Ideal.ofBits_zero_f32
  rw [hz, zero_add]
  refine Finset.sum_congr rfl fun j _ => ?_
  have e1 : idx_main_v15 (ix1 r) j = ix2 r j := funext fun a => Fin.ext (by match a with | ⟨0, _⟩ => rfl | ⟨1, _⟩ => rfl)
  rw [e1, val_main_v14_apply]
  show (x1 (ix2 r j) : EReal) * (val_main_v13 (F := Ideal) x0 x2 x3 x4 x5 (ix2 r j) : EReal) = _
  rw [val_main_v13_apply]
  refine congrArg ((x1 (ix2 r j) : EReal) * ·) (Finset.sum_congr rfl fun d _ => ?_)
  rw [val_main_v12_apply]
  have e2 : lidx_main_v13 (ix2 r j) d = ix2 r d := funext fun a => Fin.ext (by match a with | ⟨0, _⟩ => rfl | ⟨1, _⟩ => rfl)
  have e3 : idx_main_v12 (ridx_main_v13 (ix2 r j) d) = ix2 j d := funext fun a => Fin.ext (by match a with | ⟨0, _⟩ => rfl | ⟨1, _⟩ => rfl)
  rw [e2, e3]

/-- With real inputs every query entry x Wq + bq is real, -/
theorem qry_real (x0 : (⟨S8192x256, .f32⟩ : BufTy).Contents (Elt Ideal)) (x2 : (⟨S256x256, .f32⟩ : BufTy).Contents (Elt Ideal))
    (x3 : (⟨S256, .f32⟩ : BufTy).Contents (Elt Ideal)) (h0 : ∀ i, Cert.Algebra.IsReal (x0 i)) (h2 : ∀ i, Cert.Algebra.IsReal (x2 i))
    (h3 : ∀ i, Cert.Algebra.IsReal (x3 i)) (i : S8192x256.Idx) : Cert.Algebra.IsReal (val_main_v3 (F := Ideal) x0 x2 x3 i : EReal) := by
  rw [val_main_v3_apply, val_main_v0_apply, val_main_v2_apply, val_main_v1_apply]
  exact Cert.Algebra.IsReal.add (Cert.Algebra.IsReal.sum _ _ fun k _ => (h0 _).mul (h2 _)) (h3 _)

/-- and every key entry x Wk + bk. -/
theorem key_real (x0 : (⟨S8192x256, .f32⟩ : BufTy).Contents (Elt Ideal)) (x4 : (⟨S256x256, .f32⟩ : BufTy).Contents (Elt Ideal))
    (x5 : (⟨S256, .f32⟩ : BufTy).Contents (Elt Ideal)) (h0 : ∀ i, Cert.Algebra.IsReal (x0 i)) (h4 : ∀ i, Cert.Algebra.IsReal (x4 i))
    (h5 : ∀ i, Cert.Algebra.IsReal (x5 i)) (i : S8192x256.Idx) : Cert.Algebra.IsReal (val_main_v7 (F := Ideal) x0 x4 x5 i : EReal) := by
  rw [val_main_v7_apply, val_main_v4_apply, val_main_v6_apply, val_main_v5_apply]
  exact Cert.Algebra.IsReal.add (Cert.Algebra.IsReal.sum _ _ fun k _ => (h0 _).mul (h4 _)) (h5 _)

end Cert.ReferenceIdeal.RefValue

end
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.Finite.lean ====
/-
  What the precondition says. The claim's precondition is the conjunction, over the eight float inputs, of
  "every entry's absolute value is below +infinity". Over the extended reals an entry with |x| < +infinity is neither
  infinity, so it is a real number. This is what lets the products and sums of the two programs be rearranged.
-/
import proofs.«132343_j5600637354122_2_alg».proof.Proof.Gen.Pre_finite_inputs
import proofs.«132343_j5600637354122_2_alg».proof.Proof.LibRealEntries
import proofs.«132343_j5600637354122_2_alg».proof.Proof.LibBroadcastInDim
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.Pre_finite_inputs.Decode

open Cert.Pre_finite_inputs Cert.Algebra

instance : Subsingleton S_.Idx := ⟨fun a b => funext fun d => d.elim0⟩

/-- The word 0x7F800000 is +infinity. -/
theorem inf_word : Ideal.ofBits .f32 0x7F800000#32 = (⊤ : EReal) := by simp [Ideal.ofBits, Ideal.ieee]

/-- An extended real whose absolute value compares below +infinity is a real number. -/
theorem isReal_of_abs_lt (x : EReal) (h : Ideal.cmp .olt (max x (-x)) (Ideal.ofBits .f32 0x7F800000#32) = 1#1) : IsReal x := by
  rw [inf_word] at h
  have hlt : max x (-x) < ⊤ := by
    by_contra hn
    simp [Ideal.cmp, hn] at h
  induction x using EReal.rec with
  | bot => simp at hlt
  | coe r => exact ⟨r, rfl⟩
  | top => simp at hlt

/-- One conjunct of the precondition, read back: if "all |a| < +infinity" is true then every entry of a is real. -/
theorem all_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi (cmpf .olt (Host.absf a) (broadcastInDim s ![] hb (constant (F := Ideal) S_ .f32 0x7F800000#32)))
      (constantI S_ 1 1#1) hr hu ix0 = 1#1) (i : s.Idx) : IsReal (a i) := by
  have e := Host.reduce_andi_all _ _ hr hu ix0 h i
  refine isReal_of_abs_lt (a i) ?_
  have hb' : broadcastInDim s ![] hb (constant (F := Ideal) S_ .f32 0x7F800000#32) i = Ideal.ofBits .f32 0x7F800000#32 :=
    (broadcastInDim_scalar_apply _ hb _ i).trans rfl
  rw [← hb']
  exact e

variable [Facts]

/-- THE PRECONDITION DECODED: every entry of every input is a real number. -/
theorem entries_real (a0 : FVec Ideal S8192x256 .f32) (a1 : FVec Ideal S8192x8192 .f32) (a2 : FVec Ideal S256x256 .f32)
    (a3 : FVec Ideal S256 .f32) (a4 : FVec Ideal S256x256 .f32) (a5 : FVec Ideal S256 .f32) (a6 : FVec Ideal S256x256 .f32)
    (a7 : FVec Ideal S256 .f32) (h : fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) := by
  have h' := congrFun h ix0
  dsimp only [fn, fn_part1, fn_part2, andi] at h'
  obtain ⟨h', h7⟩ := IntOp.andi_eq_one.1 h'
  obtain ⟨h', h6⟩ := IntOp.andi_eq_one.1 h'
  obtain ⟨h', h5⟩ := IntOp.andi_eq_one.1 h'
  obtain ⟨h', h4⟩ := IntOp.andi_eq_one.1 h'
  obtain ⟨h', h3⟩ := IntOp.andi_eq_one.1 h'
  obtain ⟨h', h2⟩ := IntOp.andi_eq_one.1 h'
  obtain ⟨h0, h1⟩ := IntOp.andi_eq_one.1 h'
  exact ⟨all_real a0 _ _ _ h0, all_real a1 _ _ _ h1, all_real a2 _ _ _ h2, all_real a3 _ _ _ h3, all_real a4 _ _ _ h4,
    all_real a5 _ _ _ h5, all_real a6 _ _ _ h6, all_real a7 _ _ _ h7⟩

end Cert.Pre_finite_inputs.Decode

end
-- ==== Proof.Spec.lean ====
/-
  The one law that joins the two programs. For a fixed query row, write q d for its 256 query entries, a j for its 8192
  adjacency entries and k j d for the key entries. The reference masks the logits and sums them,
      sum over j of a j * (sum over d of q d * k j d),
  while the kernel first aggregates the keys and then contracts with the query,
      sum over d of q d * (sum over j of a j * k j d),
  the inner sum taken in eight tiles of 1024 keys, accumulated one tile after another from zero. The two are equal
  when every entry is a real number (distributivity and the exchange of two finite sums); with an infinite entry they
  need not be, which is why finiteness of the inputs is used.
-/
import Idealize.ShloMosaic.PureOps.Ideal
import Idealize.ShloMosaic.Lib.ValueIdx
import proofs.«132343_j5600637354122_2_alg».proof.Proof.LibRealEntries
import proofs.«132343_j5600637354122_2_alg».proof.Proof.LibTileSum

noncomputable section

open scoped BigOperators

namespace Cert.Spec

open Idealize.ShloMosaic Cert.Algebra Cert.Lib.TileSum

/-- Aggregating first and contracting afterwards is masking the logits and summing them, for real entries. -/
theorem contract_aggregate {D J : Type} [Fintype D] [Fintype J] (q : D → EReal) (a : J → EReal) (k : J → D → EReal)
    (hq : ∀ d, IsReal (q d)) (ha : ∀ j, IsReal (a j)) (hk : ∀ j d, IsReal (k j d)) :
    ∑ d, q d * ∑ j, a j * k j d = ∑ j, a j * ∑ d, q d * k j d := by
  choose qr hqr using hq
  choose ar har using ha
  choose kr hkr using hk
  have eq : q = fun d => (qr d : EReal) := funext hqr
  have ea : a = fun j => (ar j : EReal) := funext har
  have ek : k = fun j d => (kr j d : EReal) := funext fun j => funext (hkr j)
  subst eq ea ek
  simp only [← EReal.coe_mul, ← coe_sum]
  refine congrArg _ ?_
  simp only [Finset.mul_sum]
  rw [Finset.sum_comm]
  refine Finset.sum_congr rfl fun j _ => Finset.sum_congr rfl fun d _ => ?_
  ring

/-- A sum over the 8192 keys is the sum over eight tiles of the sum over the 1024 keys of each tile. -/
theorem sum_key_tiles {M : Type*} [AddCommMonoid M] (f : Fin 8192 → M) :
    ∑ t : Fin 8, ∑ r : Fin 1024, f ⟨1024 * t.val + r.val, tile_lt (a := 8) (b := 1024) t.isLt r.isLt⟩ = ∑ j, f j :=
  (sum_fin_tiles 8 1024 f).symm

/-- THE LAW, in the kernel's arrangement: contracting the query row with the keys aggregated tile by tile is the
    reference's masked row sum. -/
theorem tiled_contract_aggregate (q : Fin 256 → EReal) (a : Fin 8192 → EReal) (k : Fin 8192 → Fin 256 → EReal)
    (hq : ∀ d, IsReal (q d)) (ha : ∀ j, IsReal (a j)) (hk : ∀ j d, IsReal (k j d)) :
    ∑ d, q d * ∑ t : Fin 8, ∑ r : Fin 1024,
        a ⟨1024 * t.val + r.val, tile_lt (a := 8) (b := 1024) t.isLt r.isLt⟩
          * k ⟨1024 * t.val + r.val, tile_lt (a := 8) (b := 1024) t.isLt r.isLt⟩ d
      = ∑ j, a j * ∑ d, q d * k j d := by
  rw [← contract_aggregate q a k hq ha hk]
  refine Finset.sum_congr rfl fun d _ => congrArg (q d * ·) ?_
  exact sum_key_tiles fun j => a j * k j d

end Cert.Spec

end
-- ==== Proof.Bridge.lean ====
/-
  The two programs compute the same row sums and the same values. The kernel's row sums are, row by row, the query row
  contracted with the keys aggregated over eight tiles; the reference's are the adjacency-masked logits summed. With
  every input entry real (the precondition) the queries and keys are real, and the two agree by the law of Spec.lean.
  The values x Wv + bv are the same host lines in both programs, and so is the softmax tail.
-/
import proofs.«132343_j5600637354122_2_alg».proof.Proof.Final
import proofs.«132343_j5600637354122_2_alg».proof.Proof.Tail
import proofs.«132343_j5600637354122_2_alg».proof.Proof.Heads
import proofs.«132343_j5600637354122_2_alg».proof.Proof.RefRowSum
import proofs.«132343_j5600637354122_2_alg».proof.Proof.Finite
import proofs.«132343_j5600637354122_2_alg».proof.Proof.Spec
import Idealize.ShloMosaic.Lib.ValueLayout

set_option maxRecDepth 16384

noncomputable section

open scoped BigOperators
open Idealize.ShloMosaic Idealize.ShloMosaic.TcCoe Idealize.SL.Sem Idealize.ShloMosaic.ValueIdx

namespace Cert.Bridge

open Cert.Algebra Cert.KernelIdeal.Heads Cert.KernelIdeal.Tail Cert.KernelIdeal.Final Cert.KernelIdeal.Blocks
open Cert.ReferenceIdeal.Read Cert.ReferenceIdeal.RefValue

/-- An [a, 1] column recast as a vector of length a reads, at i, the column's row i. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + ((0 : Fin 1) : ℕ) = i.val
    simp)

/-! ## The host lines the two programs share, spelled once -/

theorem affine_eq_qry (x : FVec Ideal Cert.KernelIdeal.S8192x256 .f32) (W : FVec Ideal Cert.KernelIdeal.S256x256 .f32)
    (b : FVec Ideal Cert.KernelIdeal.S256 .f32) : affineK x W b = val_main_v3 (F := Ideal) x W b := rfl
theorem affine_eq_key (x : FVec Ideal Cert.KernelIdeal.S8192x256 .f32) (W : FVec Ideal Cert.KernelIdeal.S256x256 .f32)
    (b : FVec Ideal Cert.KernelIdeal.S256 .f32) : affineK x W b = val_main_v7 (F := Ideal) x W b := rfl
theorem affine_eq_val (x : FVec Ideal Cert.KernelIdeal.S8192x256 .f32) (W : FVec Ideal Cert.KernelIdeal.S256x256 .f32)
    (b : FVec Ideal Cert.KernelIdeal.S256 .f32) : affineK x W b = val_main_v11 (F := Ideal) x W b := rfl

/-- The reference's second result is the softmax of its row sums, -/
theorem ref_alpha (x0 : FVec Ideal Cert.KernelIdeal.S8192x256 .f32) (x1 : FVec Ideal Cert.KernelIdeal.S8192x8192 .f32)
    (x2 : FVec Ideal Cert.KernelIdeal.S256x256 .f32) (x3 : FVec Ideal Cert.KernelIdeal.S256 .f32)
    (x4 : FVec Ideal Cert.KernelIdeal.S256x256 .f32) (x5 : FVec Ideal Cert.KernelIdeal.S256 .f32) :
    val_main_v25 (F := Ideal) x0 x1 x2 x3 x4 x5 = alphaOf (val_main_v15 (F := Ideal) x0 x1 x2 x3 x4 x5) := rfl

/-- and its first the values scaled by it. -/
theorem ref_out (x0 : FVec Ideal Cert.KernelIdeal.S8192x256 .f32) (x1 : FVec Ideal Cert.KernelIdeal.S8192x8192 .f32)
    (x2 : FVec Ideal Cert.KernelIdeal.S256x256 .f32) (x3 : FVec Ideal Cert.KernelIdeal.S256 .f32)
    (x4 : FVec Ideal Cert.KernelIdeal.S256x256 .f32) (x5 : FVec Ideal Cert.KernelIdeal.S256 .f32)
    (x6 : FVec Ideal Cert.KernelIdeal.S256x256 .f32) (x7 : FVec Ideal Cert.KernelIdeal.S256 .f32) :
    val_main_v28 (F := Ideal) x0 x1 x2 x3 x4 x5 x6 x7
      = outOf (val_main_v15 (F := Ideal) x0 x1 x2 x3 x4 x5) (val_main_v11 (F := Ideal) x0 x6 x7) := rfl

variable (m : (ℓ : Loc Cert.KernelIdeal.nD Cert.KernelIdeal.τ Cert.KernelIdeal.sig) → Buf (Elt Ideal) ℓ)

/-- The values the kernel's host lines computed are the reference's. -/
theorem values_eq (c : Dev Cert.KernelIdeal.nD) :
    valuesK m c = val_main_v11 (F := Ideal) (m ((c : Thread Cert.KernelIdeal.nD Cert.KernelIdeal.τ).loc Cert.KernelIdeal.main_arg0)) (m ((c : Thread Cert.KernelIdeal.nD Cert.KernelIdeal.τ).loc Cert.KernelIdeal.main_arg6)) (m ((c : Thread Cert.KernelIdeal.nD Cert.KernelIdeal.τ).loc Cert.KernelIdeal.main_arg7)) := affine_eq_val _ _ _

/-- THE ROW SUMS AGREE, for real inputs. -/
theorem rowSums_eq (c : Dev Cert.KernelIdeal.nD)
    (h0 : ∀ i, IsReal ((m ((c : Thread Cert.KernelIdeal.nD Cert.KernelIdeal.τ).loc Cert.KernelIdeal.main_arg0)) i)) (h1 : ∀ i, IsReal ((m ((c : Thread Cert.KernelIdeal.nD Cert.KernelIdeal.τ).loc Cert.KernelIdeal.main_arg1)) i)) (h2 : ∀ i, IsReal ((m ((c : Thread Cert.KernelIdeal.nD Cert.KernelIdeal.τ).loc Cert.KernelIdeal.main_arg2)) i))
    (h3 : ∀ i, IsReal ((m ((c : Thread Cert.KernelIdeal.nD Cert.KernelIdeal.τ).loc Cert.KernelIdeal.main_arg3)) i)) (h4 : ∀ i, IsReal ((m ((c : Thread Cert.KernelIdeal.nD Cert.KernelIdeal.τ).loc Cert.KernelIdeal.main_arg4)) i)) (h5 : ∀ i, IsReal ((m ((c : Thread Cert.KernelIdeal.nD Cert.KernelIdeal.τ).loc Cert.KernelIdeal.main_arg5)) i)) :
    rowSums m c = val_main_v15 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) := by
  funext i
  obtain ⟨r, rfl⟩ : ∃ r : Fin 8192, i = ix1 r := ⟨i 0, eq_ix1 i⟩
  rw [rowSum_apply]
  unfold rowSums
  rw [shapeCast_a1_a_apply, Cert.KernelIdeal.Final.final m c]
  unfold rowOut
  rw [qry_eq, key_eq, adj_eq, affine_eq_qry, affine_eq_key]
  exact Cert.Spec.tiled_contract_aggregate
    (fun d => val_main_v3 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg3)) (ix2 r d))
    (fun j => (m ((c : Thread Cert.KernelIdeal.nD Cert.KernelIdeal.τ).loc Cert.KernelIdeal.main_arg1)) (ix2 r j))
    (fun j d => val_main_v7 (F := Ideal) (m ((c : Thread Cert.KernelIdeal.nD Cert.KernelIdeal.τ).loc Cert.KernelIdeal.main_arg0)) (m ((c : Thread Cert.KernelIdeal.nD Cert.KernelIdeal.τ).loc Cert.KernelIdeal.main_arg4)) (m ((c : Thread Cert.KernelIdeal.nD Cert.KernelIdeal.τ).loc Cert.KernelIdeal.main_arg5)) (ix2 j d))
    (fun d => qry_real _ _ _ h0 h2 h3 _) (fun j => h1 _) (fun j d => key_real _ _ _ h0 h4 h5 _)

/-- THE SECOND RESULTS AGREE under the precondition: the reference's softmax is the softmax of the kernel's row sums. -/
theorem alpha_eq (c : Dev Cert.KernelIdeal.nD)
    (hpre : Cert.Pre_finite_inputs.fn (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) = fun _ => 1#1) :
    val_main_v25 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) = alphaOf (rowSums m c) := by
  obtain ⟨h0, h1, h2, h3, h4, h5, -, -⟩ := Cert.Pre_finite_inputs.Decode.entries_real _ _ _ _ _ _ _ _ hpre
  rw [ref_alpha, rowSums_eq m c h0 h1 h2 h3 h4 h5]

/-- THE FIRST RESULTS AGREE under the precondition. -/
theorem out_eq (c : Dev Cert.KernelIdeal.nD)
    (hpre : Cert.Pre_finite_inputs.fn (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) = fun _ => 1#1) :
    val_main_v28 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) = outOf (rowSums m c) (valuesK m c) := by
  obtain ⟨h0, h1, h2, h3, h4, h5, -, -⟩ := Cert.Pre_finite_inputs.Decode.entries_real _ _ _ _ _ _ _ _ hpre
  rw [ref_out, rowSums_eq m c h0 h1 h2 h3 h4 h5, values_eq m c]

end Cert.Bridge

end
-- ==== Proof.lean ====
/-
  A neighbour-aggregating attention score, certified equal to its reference over the extended reals.

  Both programs form queries q = x Wq + bq, keys k = x Wk + bk and values v = x Wv + bv on the host, reduce them with
  the 0/1 adjacency matrix adj to one score per row, s_r, take a softmax of the 8192 scores and scale the rows of v by
  it. They differ only in how s_r is computed. The reference forms all logits and sums the masked ones,
      s_r = sum over j of adj(r, j) * (sum over d of q(r, d) * k(j, d)).
  The kernel aggregates the keys first, on a 4 x 8 grid of 2048 query rows by 1024 keys with a [2048, 256] accumulator
  carried along each sweep of eight key tiles, and contracts with the query row at the sweep's last point,
      s_r = sum over d of q(r, d) * (sum over tiles and their keys j of adj(r, j) * k(j, d)).
  For real entries the two are one number (distributivity, and exchanging two finite sums); the precondition makes every
  input entry real, hence every entry of q and k. The narrowing of adj and k to bf16 is the identity here.

  The frames of the two kernel programs and the run of the reference are generated; the kernel's value is read off the
  generated frame run: what each kind of grid point leaves (Pieces, Payloads), the accumulator by induction on the
  grid position (Accumulate), the output column from its four blocks (Final), the host lines around the region (Heads,
  Tail, KernelRun), the reference's row sum (RefRowSum), the precondition read back (Finite), the law (Spec), and the
  two programs joined (Bridge).
-/
import proofs.«132343_j5600637354122_2_alg».proof.Defs
import proofs.«132343_j5600637354122_2_alg».proof.Proof.Gen.Kernel
import proofs.«132343_j5600637354122_2_alg».proof.Proof.Gen.Kernel.Frame
import proofs.«132343_j5600637354122_2_alg».proof.Proof.Gen.KernelIdeal
import proofs.«132343_j5600637354122_2_alg».proof.Proof.Gen.KernelIdeal.Frame
import proofs.«132343_j5600637354122_2_alg».proof.Proof.Gen.ReferenceIdeal
import proofs.«132343_j5600637354122_2_alg».proof.Proof.Gen.ReferenceIdeal.Run
import proofs.«132343_j5600637354122_2_alg».proof.Proof.Gen.ReferenceIdeal.Read
import proofs.«132343_j5600637354122_2_alg».proof.Proof.Gen.Pre_finite_inputs
import proofs.«132343_j5600637354122_2_alg».proof.Proof.KernelRun
import proofs.«132343_j5600637354122_2_alg».proof.Proof.Bridge

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference is host lines only: its generated run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end at the values scaled by the softmax of the kernel's row sums, and at that softmax: the kernel by
    its run read off the frame, the reference because, its arguments agreeing and being real, its row sums are the
    kernel's. -/
theorem algebraic : Cert.algebraic_KernelIdeal_ReferenceIdeal := by
  intro m ρ m' ρ' hpre hagree
  refine ⟨fun c => Cert.KernelIdeal.Tail.outOf (Cert.KernelIdeal.Tail.rowSums m c) (Cert.KernelIdeal.Tail.valuesK m c),
    fun c => Cert.KernelIdeal.Tail.alphaOf (Cert.KernelIdeal.Tail.rowSums m c), Cert.KernelIdeal.KernelRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v28_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact Cert.Bridge.out_eq m c (hpre c)
  · rw [Cert.ReferenceIdeal.Read.val_main_v25_eq, (hagree c).1, (hagree c).2.1, (hagree c).2.2.1, (hagree c).2.2.2.1,
      (hagree c).2.2.2.2.1, (hagree c).2.2.2.2.2.1]
    exact Cert.Bridge.alpha_eq m c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
